-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x256x128x128 .f32) (main_arg1 : FVec F S16x256 .f32) (main_arg2 : FVec F S16 .f32) (main_arg3 : FVec F S256x16 .f32) (main_arg4 : FVec F S256 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S8x256x128x128 : Shape := ⟨4, ![8, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S1x16 : Shape := ⟨2, ![1, 16]⟩
abbrev S1x256 : Shape := ⟨2, ![1, 256]⟩
abbrev S8x1x256 : Shape := ⟨3, ![8, 1, 256]⟩
abbrev S1x256x128x128 : Shape := ⟨4, ![1, 256, 128, 128]⟩
abbrev S1x1x256 : Shape := ⟨3, ![1, 1, 256]⟩
abbrev S1x256x128 : Shape := ⟨3, ![1, 256, 128]⟩
abbrev S8x256x1x1 : Shape := ⟨4, ![8, 256, 1, 1]⟩
abbrev S1x256x32x128 : Shape := ⟨4, ![1, 256, 32, 128]⟩
abbrev S1x256x1x1 : Shape := ⟨4, ![1, 256, 1, 1]⟩

abbrev nBuf : Space → Nat
  | .hbm => 10
  | .vmem => 14
  | .smem => 0
  | _ => 0

abbrev bufTy : (tb : Table) → Fin (tcTables nBuf tb) → BufTy
  | .hbm, ⟨0, _⟩ => ⟨S8x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S1x16, .f32⟩
  | .hbm, ⟨6, _⟩ => ⟨S1x256, .f32⟩
  | .hbm, ⟨7, _⟩ => ⟨S8x1x256, .f32⟩
  | .hbm, ⟨8, _⟩ => ⟨S8x256x1x1, .f32⟩
  | .hbm, ⟨9, _⟩ => ⟨S8x256x128x128, .f32⟩
  | .local _ .vmem, ⟨0, _⟩ => ⟨S1x256x128x128, .f32⟩
  | .local _ .vmem, ⟨1, _⟩ => ⟨S1x256x128x128, .f32⟩
  | .local _ .vmem, ⟨2, _⟩ => ⟨S16x256, .f32⟩
  | .local _ .vmem, ⟨3, _⟩ => ⟨S1x16, .f32⟩
  | .local _ .vmem, ⟨4, _⟩ => ⟨S256x16, .f32⟩
  | .local _ .vmem, ⟨5, _⟩ => ⟨S1x256, .f32⟩
  | .local _ .vmem, ⟨6, _⟩ => ⟨S1x1x256, .f32⟩
  | .local _ .vmem, ⟨7, _⟩ => ⟨S1x1x256, .f32⟩
  | .local _ .vmem, ⟨8, _⟩ => ⟨S1x256x32x128, .f32⟩
  | .local _ .vmem, ⟨9, _⟩ => ⟨S1x256x32x128, .f32⟩
  | .local _ .vmem, ⟨10, _⟩ => ⟨S1x256x1x1, .f32⟩
  | .local _ .vmem, ⟨11, _⟩ => ⟨S1x256x1x1, .f32⟩
  | .local _ .vmem, ⟨12, _⟩ => ⟨S1x256x32x128, .f32⟩
  | .local _ .vmem, ⟨13, _⟩ => ⟨S1x256x32x128, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x256x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16_S1x16 : S16.ShapeCasts S1x16
  shapeCasts_S256_S1x256 : S256.ShapeCasts S1x256
  inb_S1x256x128x128_S1x256x128x128_0_0_0_0 : ∀ a, (![0, 0, 0, 0] : Fin 4 → Nat) a + S1x256x128x128.size a ≤ S1x256x128x128.size a
  h_S1x256x128x128 : 0 < S1x256x128x128.numel
  reduces_S1x256x128x128_S1x256x128 : S1x256x128x128.Reduces [3] S1x256x128
  reduces_S1x256x128_S1x256 : S1x256x128.Reduces [2] S1x256
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  transposes_S16x256_p1_0_S256x16 : S16x256.Transposes [1, 0] S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S256x16_S256x16_0_0 : ∀ a, (![0, 0] : Fin 2 → Nat) a + S256x16.size a ≤ S256x16.size a
  h_S256x16 : 0 < S256x16.numel
  transposes_S256x16_p1_0_S16x256 : S256x16.Transposes [1, 0] S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S8x1x256_S8x256x1x1 : S8x1x256.ShapeCasts S8x256x1x1
  inb_S1x256x32x128_S1x256x32x128_0_0_0_0 : ∀ a, (![0, 0, 0, 0] : Fin 4 → Nat) a + S1x256x32x128.size a ≤ S1x256x32x128.size a
  h_S1x256x32x128 : 0 < S1x256x32x128.numel
  inb_S1x256x1x1_S1x256x1x1_0_0_0_0 : ∀ a, (![0, 0, 0, 0] : Fin 4 → Nat) a + S1x256x1x1.size a ≤ S1x256x1x1.size a
  h_S1x256x1x1 : 0 < S1x256x1x1.numel
  shapeCasts_S1x256x1x1_S1x256x1x1 : S1x256x1x1.ShapeCasts S1x256x1x1
  broadcasts_S1x256x1x1_S1x256x32x128 : S1x256x1x1.Broadcasts S1x256x32x128
  dot_S1x256_S256x16_S1x16_1_0_0_1_n_n_wf : DotDims.WF S1x256 S256x16 S1x16 [1] [0] [0] [1] [] []
  dot_S1x16_S16x256_S1x256_1_0_0_1_n_n_wf : DotDims.WF S1x16 S16x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128x128.size a ≤ S8x256x128x128.size a
  hwx0_0 : ∀ i : grid0.Coords, EltTy.bits .f32 = 32 ∨ (Rect.block (s := S8x256x128x128) S1x256x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S8x1x256.size a
  hwx0_5 : ∀ i : grid0.Coords, EltTy.bits .f32 = 32 ∨ (Rect.block (s := S8x1x256) S1x1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x32x128.size a ≤ S8x256x128x128.size a
  hwx1_0 : ∀ i : grid1.Coords, EltTy.bits .f32 = 32 ∨ (Rect.block (s := S8x256x128x128) S1x256x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1x1.size a ≤ S8x256x1x1.size a
  hwx1_1 : ∀ i : grid1.Coords, EltTy.bits .f32 = 32 ∨ (Rect.block (s := S8x256x1x1) S1x256x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x32x128.size a ≤ S8x256x128x128.size a
  hwx1_2 : ∀ i : grid1.Coords, EltTy.bits .f32 = 32 ∨ (Rect.block (s := S8x256x128x128) S1x256x32x128.size (cc1_transform_2 i) (hinb1_2 i)).WholeWords (EltTy.packing .f32)

variable [Facts₀]

def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf
def dot_S1x16_S16x256_S1x256_1_0_0_1_n_n : DotDims S1x16 S16x256 S1x256 where
  lhsContracting := [1]
  rhsContracting := [0]
  lhsNonContracting := [0]
  rhsNonContracting := [1]
  lhsBatch := []
  rhsBatch := []
  wf := dot_S1x16_S16x256_S1x256_1_0_0_1_n_n_wf

abbrev win0_0 : Pipeline.Window sig grid0 :=
  Pipeline.Window.ofSpec (Memref.whole main_arg0) S1x256x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x256x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x256x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256x32x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x256x128x128 : Shape := ⟨4, ![8, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S8x256 : Shape := ⟨2, ![8, 256]⟩
abbrev S8x16 : Shape := ⟨2, ![8, 16]⟩
abbrev S1x16 : Shape := ⟨2, ![1, 16]⟩
abbrev S1x256 : Shape := ⟨2, ![1, 256]⟩
abbrev S8x256x1x1 : Shape := ⟨4, ![8, 256, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S8x256, .f32⟩
  | .hbm, ⟨7, _⟩ => ⟨S_, .f32⟩
  | .hbm, ⟨8, _⟩ => ⟨S8x256, .f32⟩
  | .hbm, ⟨9, _⟩ => ⟨S8x256, .f32⟩
  | .hbm, ⟨10, _⟩ => ⟨S8x16, .f32⟩
  | .hbm, ⟨11, _⟩ => ⟨S1x16, .f32⟩
  | .hbm, ⟨12, _⟩ => ⟨S8x16, .f32⟩
  | .hbm, ⟨13, _⟩ => ⟨S8x16, .f32⟩
  | .hbm, ⟨14, _⟩ => ⟨S_, .f32⟩
  | .hbm, ⟨15, _⟩ => ⟨S8x16, .f32⟩
  | .hbm, ⟨16, _⟩ => ⟨S8x16, .i1⟩
  | .hbm, ⟨17, _⟩ => ⟨S_, .f32⟩
  | .hbm, ⟨18, _⟩ => ⟨S8x16, .f32⟩
  | .hbm, ⟨19, _⟩ => ⟨S8x16, .f32⟩
  | .hbm, ⟨20, _⟩ => ⟨S8x16, .f32⟩
  | .hbm, ⟨21, _⟩ => ⟨S8x256, .f32⟩
  | .hbm, ⟨22, _⟩ => ⟨S1x256, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S_, .f32⟩
  | .hbm, ⟨28, _⟩ => ⟨S8x256, .f32⟩
  | .hbm, ⟨29, _⟩ => ⟨S8x256, .f32⟩
  | .hbm, ⟨30, _⟩ => ⟨S_, .f32⟩
  | .hbm, ⟨31, _⟩ => ⟨S8x256, .f32⟩
  | .hbm, ⟨32, _⟩ => ⟨S8x256, .f32⟩
  | .hbm, ⟨33, _⟩ => ⟨S8x256x1x1, .f32⟩
  | .hbm, ⟨34, _⟩ => ⟨S8x256x128x128, .f32⟩
  | .hbm, ⟨35, _⟩ => ⟨S8x256x128x128, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  reducesTo_S8x256x128x128_S8x256_d2_3 : S8x256x128x128.ReducesTo [2, 3] S8x256
  h_S_ : 0 < S_.numel
  bcast_S_S8x256 : S_.BroadcastsInDim S8x256 (![] : Fin 0 → Fin S8x256.rank)
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S8x16 : S_.BroadcastsInDim S8x16 (![] : Fin 0 → Fin S8x16.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S8x256_S8x256x1x1_0_1 : S8x256.BroadcastsInDim S8x256x1x1 (![0, 1] : Fin 2 → Fin S8x256x1x1.rank)
  bcast_S8x256x1x1_S8x256x128x128_0_1_2_3 : S8x256x1x1.BroadcastsInDim S8x256x128x128 (![0, 1, 2, 3] : Fin 4 → Fin S8x256x128x128.rank)
  dot_S8x256_S16x256_S8x16_1_1_0_0_n_n_wf : DotDims.WF S8x256 S16x256 S8x16 [1] [1] [0] [0] [] []
  dot_S8x16_S256x16_S8x256_1_1_0_0_n_n_wf : DotDims.WF S8x16 S256x16 S8x256 [1] [1] [0] [0] [] []

variable [Facts₀]

def dot_S8x256_S16x256_S8x16_1_1_0_0_n_n : DotDims S8x256 S16x256 S8x16 where
  lhsContracting := [1]
  rhsContracting := [1]
  lhsNonContracting := [0]
  rhsNonContracting := [0]
  lhsBatch := []
  rhsBatch := []
  wf := dot_S8x256_S16x256_S8x16_1_1_0_0_n_n_wf
def dot_S8x16_S256x16_S8x256_1_1_0_0_n_n : DotDims S8x16 S256x16 S8x256 where
  lhsContracting := [1]
  rhsContracting := [1]
  lhsNonContracting := [0]
  rhsNonContracting := [0]
  lhsBatch := []
  rhsBatch := []
  wf := dot_S8x16_S256x16_S8x256_1_1_0_0_n_n_wf

class Facts : Prop extends Facts₀ where

variable [Facts]
-- ==== Proof.Gate.lean ====
/-
  The function both programs compute, on the extended reals, written once over coordinates.

  For an image batch `x : [8,256,128,128]`, weights `w1 : [16,256]`, `w2 : [256,16]` and biases `b1 : [16]`,
  `b2 : [256]`:
    pool b c   = (sum over the 128 x 128 positions of x[b,c,.,.]) * 2^-14      (the channel mean)
    pre1 b s   = (sum over c of pool b c * w1[s,c]) + b1[s]
    hid  b s   = pre1 if pre1 >= 0 else 0.2f * pre1                              (leaky rectifier, slope the f32 word of 0.2)
    pre2 b c   = (sum over s of hid b s * w2[c,s]) + b2[c]
    gate b c   = 1 / (1 + e^(-pre2 b c))
    scaled i   = x[i] * gate (i 0) (i 1)
  Sums are finite sums in the commutative monoid of extended reals, so no order or grouping is recorded.
-/
import Idealize.ShloMosaic.PureOps.Ideal
import Idealize.ShloMosaic.Lib.ValueIdx

noncomputable section

open scoped BigOperators

namespace Cert.Gate

open Idealize.ShloMosaic Idealize.ShloMosaic.ValueIdx

/-- The channel mean of image `b`: the sum over its 128 x 128 positions times the f32 word `0x38800000` (2^-14). -/
def pool (x : (⟨4, ![8, 256, 128, 128]⟩ : Shape).Idx → EReal) (b : Fin 8) (c : Fin 256) : EReal :=
  (∑ h : Fin 128, ∑ w : Fin 128, x (ix4 b c h w)) * Ideal.ofBits .f32 0x38800000#32

/-- The leaky rectifier: `y` where `y ≥ 0`, else the f32 word of 0.2 times `y`. -/
def leaky (y : EReal) : EReal :=
  Scalar.select (FloatOps.cmpf (F := Ideal) (φ := .f32) .oge y (FloatOps.ofBits .f32 0x00000000#32)) y
    (Ideal.ofBits .f32 0x3E4CCCCD#32 * y)

/-- The squeezed activations: the pooled means through the first affine map and the rectifier. -/
def hid (x : (⟨4, ![8, 256, 128, 128]⟩ : Shape).Idx → EReal) (w1 : (⟨2, ![16, 256]⟩ : Shape).Idx → EReal)
    (b1 : (⟨1, ![16]⟩ : Shape).Idx → EReal) (b : Fin 8) (s : Fin 16) : EReal :=
  leaky ((∑ c : Fin 256, pool x b c * w1 (ix2 s c)) + b1 (ix1 s))

/-- The gate of channel `c` of image `b`: the logistic function of the second affine map. -/
def gate (x : (⟨4, ![8, 256, 128, 128]⟩ : Shape).Idx → EReal) (w1 : (⟨2, ![16, 256]⟩ : Shape).Idx → EReal)
    (b1 : (⟨1, ![16]⟩ : Shape).Idx → EReal) (w2 : (⟨2, ![256, 16]⟩ : Shape).Idx → EReal)
    (b2 : (⟨1, ![256]⟩ : Shape).Idx → EReal) (b : Fin 8) (c : Fin 256) : EReal :=
  Ideal.logistic ((∑ s : Fin 16, hid x w1 b1 b s * w2 (ix2 c s)) + b2 (ix1 c))

/-- The result: every element of `x` times its channel's gate. -/
def scaled (x : (⟨4, ![8, 256, 128, 128]⟩ : Shape).Idx → EReal) (w1 : (⟨2, ![16, 256]⟩ : Shape).Idx → EReal)
    (b1 : (⟨1, ![16]⟩ : Shape).Idx → EReal) (w2 : (⟨2, ![256, 16]⟩ : Shape).Idx → EReal)
    (b2 : (⟨1, ![256]⟩ : Shape).Idx → EReal) : (⟨4, ![8, 256, 128, 128]⟩ : Shape).Idx → EReal :=
  fun i => x i * gate x w1 b1 w2 b2 ⟨(i 0).val, (i 0).isLt⟩ ⟨(i 1).val, (i 1).isLt⟩

end Cert.Gate

end
-- ==== Proof.LibMean.lean ====
/-
  General facts about extended reals and index sums that the reference's reading of the gate uses; no program here.

  * The f32 words `0x46800000`, `0x38800000` and `0x3F800000` denote the reals 16384, 1/16384 and 1.
  * Dividing any extended real by the word 16384 is multiplying it by the word 2^-14 (at the infinities too).
  * A sum over the last two axes of a rank-4 array: the set of indices of `[8,256,128,128]` that drop to `(b, c)`
    is the image of `Fin 128 × Fin 128` under `(h, w) ↦ (b, c, h, w)`, so the host's sum over those axes at `(b, c)`
    is the initial value plus the double sum over `h` and `w`.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.LibMean

open Idealize.ShloMosaic Idealize.ShloMosaic.ValueIdx

/-! ## The constants -/

/-- The f32 word `0x46800000` denotes the real `16384 = 2^14`. -/
theorem ofBits_16384 : Ideal.ofBits .f32 0x46800000#32 = ((16384 : ℝ) : EReal) := by
  simp [Ideal.ofBits, Ideal.ieee, -EReal.coe_mul]; norm_num

/-- The f32 word `0x38800000` denotes the real `1 / 16384 = 2^-14`. -/
theorem ofBits_inv16384 : Ideal.ofBits .f32 0x38800000#32 = ((1 / 16384 : ℝ) : EReal) := by
  simp [Ideal.ofBits, Ideal.ieee, -EReal.coe_mul]; norm_num

/-- The f32 word `0x3F800000` denotes `1`. -/
theorem ofBits_one : Ideal.ofBits .f32 0x3F800000#32 = 1 := by
  simp [Ideal.ofBits, Ideal.ieee, -EReal.coe_mul]; norm_num

/-! ## The mean as a product -/

/-- Division by 16384 is multiplication by 2^-14, on every extended real. -/
theorem div_16384 (s : EReal) :
    Ideal.div s (Ideal.ofBits .f32 0x46800000#32) = s * Ideal.ofBits .f32 0x38800000#32 := by
  rw [ofBits_16384, ofBits_inv16384]
  exact Ideal.div_coe (by norm_num) s

/-! ## The sum over the last two axes -/

/-- An index of `[8,256,128,128]` drops (axes 2 and 3 removed) to `(b, c)` exactly when its first two coordinates are
    `b` and `c`. -/
theorem drop_eq_iff (h' : (⟨4, ![8, 256, 128, 128]⟩ : Shape).ReducesTo [2, 3] ⟨2, ![8, 256]⟩)
    (i : (⟨4, ![8, 256, 128, 128]⟩ : Shape).Idx) (b : Fin 8) (c : Fin 256) :
    h'.drop i = ix2 b c ↔ (i 0).val = b.val ∧ (i 1).val = c.val := by
  have e0 : ((h'.drop i) 0 : Nat) = (i 0).val := h'.drop_apply_val_of_eq i 0 0
  have e1 : ((h'.drop i) 1 : Nat) = (i 1).val := h'.drop_apply_val_of_eq i 1 1
  constructor
  · intro h
    refine ⟨?_, ?_⟩
    · rw [← e0, h]
    · rw [← e1, h]
  · rintro ⟨h0, h1⟩
    funext a
    refine Fin.ext ?_
    match a with
    | ⟨0, _⟩ => exact e0.trans h0
    | ⟨1, _⟩ => exact e1.trans h1

/-- The host's sum over axes 2 and 3 of a `[8,256,128,128]` array, read at `(b, c)`: the initial value plus the sum
    over the 128 × 128 positions of the array at `(b, c, h, w)`. The shape fact is a variable, so nothing is evaluated. -/
theorem hostReduceAdd_last2 (h' : (⟨4, ![8, 256, 128, 128]⟩ : Shape).ReducesTo [2, 3] ⟨2, ![8, 256]⟩)
    (x : (⟨4, ![8, 256, 128, 128]⟩ : Shape).Idx → EReal) (init : EReal) (b : Fin 8) (c : Fin 256) :
    Ideal.hostReduceAdd h' x init (ix2 b c) = init + ∑ h : Fin 128, ∑ w : Fin 128, x (ix4 b c h w) := by
  unfold Ideal.hostReduceAdd
  refine congrArg (init + ·) ?_
  rw [← Fintype.sum_prod_type' (fun (h : Fin 128) (w : Fin 128) => x (ix4 b c h w))]
  refine Finset.sum_nbij' (fun i => ((⟨(i 2).val, (i 2).isLt⟩ : Fin 128), (⟨(i 3).val, (i 3).isLt⟩ : Fin 128)))
    (fun p => ix4 b c p.1 p.2) ?_ ?_ ?_ ?_ ?_
  · intro i _; exact Finset.mem_univ _
  · intro p _
    rw [Finset.mem_filter]
    exact ⟨Finset.mem_univ _, (drop_eq_iff h' _ b c).2 ⟨rfl, rfl⟩⟩
  · intro i hi
    obtain ⟨h0, h1⟩ := (drop_eq_iff h' i b c).1 (Finset.mem_filter.1 hi).2
    funext a
    refine Fin.ext ?_
    match a with
    | ⟨0, _⟩ => exact h0.symm
    | ⟨1, _⟩ => exact h1.symm
    | ⟨2, _⟩ => rfl
    | ⟨3, _⟩ => rfl
  · intro p _; rfl
  · intro i hi
    obtain ⟨h0, h1⟩ := (drop_eq_iff h' i b c).1 (Finset.mem_filter.1 hi).2
    refine congrArg x ?_
    funext a
    refine Fin.ext ?_
    match a with
    | ⟨0, _⟩ => exact h0
    | ⟨1, _⟩ => exact h1
    | ⟨2, _⟩ => rfl
    | ⟨3, _⟩ => rfl

end Cert.LibMean

end
-- ==== Proof.RefGate.lean ====
/-
  The reference program computes the specification function.

  The reference, one operation at a time (the generated reading of its run), is followed from its output back to its
  arguments and each stage is identified with the corresponding piece of `Cert.Gate`:
    the sum over the 128 x 128 positions divided by 16384      is  `pool` (the sum times 2^-14),
    the first contraction plus its bias                        is  the argument of the rectifier in `hid`,
    compare-with-zero / multiply-by-0.2 / select               is  `leaky`, so the stage is `hid`,
    the second contraction plus its bias                       is  the argument of the logistic function in `gate`,
    1 / (1 + e^(-y))                                           is  `Ideal.logistic y`, so the stage is `gate`,
    the two broadcasts and the final product                   is  `scaled`.
  Only exact identities of extended reals are used: finite sums re-indexed, division by 16384 as multiplication by
  2^-14, and definitional unfoldings. No finiteness of the inputs is needed.
-/
import proofs.«115423_j43447889166408_2_alg».proof.Proof.Gate
import proofs.«115423_j43447889166408_2_alg».proof.Proof.Gen.ReferenceIdeal.Read
import proofs.«115423_j43447889166408_2_alg».proof.Proof.LibMean

noncomputable section

open scoped BigOperators

namespace Cert.RefGate

open Cert.ReferenceIdeal Cert.ReferenceIdeal.Read Idealize.ShloMosaic Idealize.ShloMosaic.ValueIdx

variable (x0 : (⟨Cert.ReferenceIdeal.S8x256x128x128, .f32⟩ : BufTy).Contents (Elt Ideal))
  (x1 : (⟨Cert.ReferenceIdeal.S16x256, .f32⟩ : BufTy).Contents (Elt Ideal))
  (x2 : (⟨Cert.ReferenceIdeal.S16, .f32⟩ : BufTy).Contents (Elt Ideal))
  (x3 : (⟨Cert.ReferenceIdeal.S256x16, .f32⟩ : BufTy).Contents (Elt Ideal))
  (x4 : (⟨Cert.ReferenceIdeal.S256, .f32⟩ : BufTy).Contents (Elt Ideal))

/-! ## The indices the generated reading computes, at indices given by coordinates -/

theorem lidx3 (b : Fin 8) (s : Fin 16) (k : Fin 256) : lidx_main_v3 (ix2 b s) k = ix2 b k := by
  funext a; match a with | ⟨0, _⟩ => rfl | ⟨1, _⟩ => rfl

theorem ridx3 (b : Fin 8) (s : Fin 16) (k : Fin 256) : ridx_main_v3 (ix2 b s) k = ix2 s k := by
  funext a; match a with | ⟨0, _⟩ => rfl | ⟨1, _⟩ => rfl

theorem bias1 (b : Fin 8) (s : Fin 16) : idx_main_v4 (idx_main_v5 (ix2 b s)) = ix1 s := by
  funext a; match a with | ⟨0, _⟩ => rfl

theorem lidx12 (b : Fin 8) (c : Fin 256) (k : Fin 16) : lidx_main_v12 (ix2 b c) k = ix2 b k := by
  funext a; match a with | ⟨0, _⟩ => rfl | ⟨1, _⟩ => rfl

theorem ridx12 (b : Fin 8) (c : Fin 256) (k : Fin 16) : ridx_main_v12 (ix2 b c) k = ix2 c k := by
  funext a; match a with | ⟨0, _⟩ => rfl | ⟨1, _⟩ => rfl

theorem bias2 (b : Fin 8) (c : Fin 256) : idx_main_v13 (idx_main_v14 (ix2 b c)) = ix1 c := by
  funext a; match a with | ⟨0, _⟩ => rfl

theorem bcast (b : Fin 8) (c : Fin 256) (h w : Fin 128) : idx_main_v22 (idx_main_v23 (ix4 b c h w)) = ix2 b c := by
  funext a; match a with | ⟨0, _⟩ => rfl | ⟨1, _⟩ => rfl

/-! ## The stages -/

/-- The sum over axes 2 and 3, from the initial value `0`: the double sum over the positions. -/
theorem sum_eq (b : Fin 8) (c : Fin 256) :
    val_main_v0 (F := Ideal) x0 (ix2 b c) = ∑ h : Fin 128, ∑ w : Fin 128, x0 (ix4 b c h w) := by
  unfold val_main_v0
  refine (LibMean.hostReduceAdd_last2 _ x0 _ b c).trans ?_
  rw [val_main_cst_apply, Ideal.ofBits_def, Ideal.ofBits_zero_f32, zero_add]

/-- The mean: that sum divided by 16384 is the sum times 2^-14. -/
theorem mean_eq (b : Fin 8) (c : Fin 256) :
    val_main_v2 (F := Ideal) x0 (ix2 b c) = Cert.Gate.pool x0 b c := by
  rw [val_main_v2_apply, sum_eq, val_main_v1_apply, val_main_cst_0_apply, Ideal.hostDivf_def, Ideal.ofBits_def]
  exact LibMean.div_16384 _

/-- The first contraction plus its bias. -/
theorem pre1_eq (b : Fin 8) (s : Fin 16) :
    val_main_v6 (F := Ideal) x0 x1 x2 (ix2 b s)
      = (∑ c : Fin 256, Cert.Gate.pool x0 b c * x1 (ix2 s c)) + x2 (ix1 s) := by
  rw [val_main_v6_apply, val_main_v3_apply, val_main_v5_apply, val_main_v4_apply, Ideal.addf_def, bias1]
  refine congrArg (· + x2 (ix1 s)) (Finset.sum_congr rfl fun k _ => ?_)
  rw [lidx3, ridx3, mean_eq]

/-- The rectifier of it: the squeezed activations. -/
theorem hid_eq (b : Fin 8) (s : Fin 16) :
    val_main_v11 (F := Ideal) x0 x1 x2 (ix2 b s) = Cert.Gate.hid x0 x1 x2 b s := by
  rw [val_main_v11_apply, val_main_v8_apply, val_main_v10_apply, val_main_v7_apply, val_main_cst_1_apply,
    val_main_v9_apply, val_main_cst_2_apply, pre1_eq]
  rfl

/-- The second contraction plus its bias. -/
theorem pre2_eq (b : Fin 8) (c : Fin 256) :
    val_main_v15 (F := Ideal) x0 x1 x2 x3 x4 (ix2 b c)
      = (∑ s : Fin 16, Cert.Gate.hid x0 x1 x2 b s * x3 (ix2 c s)) + x4 (ix1 c) := by
  rw [val_main_v15_apply, val_main_v12_apply, val_main_v14_apply, val_main_v13_apply, Ideal.addf_def, bias2]
  refine congrArg (· + x4 (ix1 c)) (Finset.sum_congr rfl fun k _ => ?_)
  rw [lidx12, ridx12, hid_eq]

/-- The logistic function of it, spelt `1 / (1 + e^(-y))` by the reference: the gate. -/
theorem gate_eq (b : Fin 8) (c : Fin 256) :
    val_main_v21 (F := Ideal) x0 x1 x2 x3 x4 (ix2 b c) = Cert.Gate.gate x0 x1 x2 x3 x4 b c := by
  rw [val_main_v21_apply, val_main_v20_apply, val_main_cst_4_apply, val_main_v19_apply, val_main_v18_apply,
    val_main_cst_3_apply, val_main_v17_apply, val_main_v16_apply, pre2_eq, Ideal.ofBits_def, LibMean.ofBits_one]
  rfl

/-! ## The reference is the specification -/

theorem reference_eq
    (x0 : (⟨Cert.ReferenceIdeal.S8x256x128x128, .f32⟩ : BufTy).Contents (Elt Ideal))
    (x1 : (⟨Cert.ReferenceIdeal.S16x256, .f32⟩ : BufTy).Contents (Elt Ideal))
    (x2 : (⟨Cert.ReferenceIdeal.S16, .f32⟩ : BufTy).Contents (Elt Ideal))
    (x3 : (⟨Cert.ReferenceIdeal.S256x16, .f32⟩ : BufTy).Contents (Elt Ideal))
    (x4 : (⟨Cert.ReferenceIdeal.S256, .f32⟩ : BufTy).Contents (Elt Ideal)) :
    Cert.ReferenceIdeal.Read.val_main_v24 (F := Ideal) x0 x1 x2 x3 x4 = Cert.Gate.scaled x0 x1 x2 x3 x4 := by
  funext i
  obtain ⟨b, c, h, w, rfl⟩ : ∃ (b : Fin 8) (c : Fin 256) (h w : Fin 128), i = ix4 b c h w :=
    ⟨i 0, i 1, i 2, i 3, eq_ix4 i⟩
  rw [val_main_v24_apply, val_main_v23_apply, val_main_v22_apply, bcast, gate_eq, Ideal.mulf_def]
  rfl

end Cert.RefGate

end
-- ==== Proof.Payload.lean ====
/-
  The two kernel bodies' stored values, read at an index, on the extended reals (every operation exact, a change of
  float format the identity).

  The reduce kernel, for the one image of its block `x0 : [1,256,128,128]`, weights `x1 : [16,256]`, `x3 : [256,16]`
  and bias rows `x2 : [1,16]`, `x4 : [1,256]`, stores at (0, 0, c)
    logistic ((sum over s of leaky (pre1 s) * x3[c,s]) + x4[0,c]),
    pre1 s = (sum over k of ((sum over h, w of x0[0,k,h,w]) * 2^-14) * x1[s,k]) + x2[0,s]:
  two sums over one axis each give the sum over the 128 x 128 positions; each matrix product has one contracting axis
  and a transposed weight matrix as its right operand, so its element is a sum over that axis's coordinate; the
  rectifier is spelt as a select on `>= 0`, which is the specification's `Cert.Gate.leaky` by unfolding.

  The scale kernel, for an image block `x0 : [1,256,32,128]` and a gate block `x1 : [1,256,1,1]`, stores at
  (0, c, h, w) the product x0[0,c,h,w] * x1[0,c,0,0]: the gate block is broadcast over the 32 x 128 positions.

  Float constants stay the words the program prints (`Ideal.ofBits .f32 …`); none is evaluated. Sums are finite sums
  in the commutative monoid of extended reals. No finiteness is assumed.
-/
import proofs.«115423_j43447889166408_2_alg».proof.Proof.Gate
import proofs.«115423_j43447889166408_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The two lane sums -/

/-- The sum over the last axis of a [1,256,128,128] block, at (0, k, h): the sum over the 128 lanes. -/
theorem sum_axis3_apply (x : FVec Ideal S1x256x128x128 .f32) (hφ : FKind.Formats .f32)
    (hacc : (0x00000000#32 : BitVec 32) = FKind.add.neutral .f32 hφ) (k : Fin 256) (h : Fin 128) :
    multiReduction .add [3] S1x256x128 x 0x00000000#32 reduces_S1x256x128x128_S1x256x128 hφ hacc (ix3 (0 : Fin 1) k h)
      = ∑ w : Fin 128, x (ix4 (0 : Fin 1) k h w) := by
  refine (Ideal.multiReduction_add_single x 0x00000000#32 reduces_S1x256x128x128_S1x256x128 hφ hacc
    (ix3 (0 : Fin 1) k h)).trans ?_
  refine Finset.sum_congr rfl fun w _ => congrArg x (funext fun a => Fin.ext ?_)
  match a with
  | ⟨0, _⟩ => rfl
  | ⟨1, _⟩ => rfl
  | ⟨2, _⟩ => rfl
  | ⟨3, _⟩ => rfl

/-- The sum over the last axis of a [1,256,128] vector, at (0, k): the sum over the 128 rows. -/
theorem sum_axis2_apply (y : FVec Ideal S1x256x128 .f32) (hφ : FKind.Formats .f32)
    (hacc : (0x00000000#32 : BitVec 32) = FKind.add.neutral .f32 hφ) (k : Fin 256) :
    multiReduction .add [2] S1x256 y 0x00000000#32 reduces_S1x256x128_S1x256 hφ hacc (ix2 (0 : Fin 1) k)
      = ∑ h : Fin 128, y (ix3 (0 : Fin 1) k h) := by
  refine (Ideal.multiReduction_add_single y 0x00000000#32 reduces_S1x256x128_S1x256 hφ hacc
    (ix2 (0 : Fin 1) k)).trans ?_
  refine Finset.sum_congr rfl fun h _ => congrArg y (funext fun a => Fin.ext ?_)
  match a with
  | ⟨0, _⟩ => rfl
  | ⟨1, _⟩ => rfl
  | ⟨2, _⟩ => rfl

/-! ## The two matrix products

Each `tpu.matmul` has one contracting axis: the left operand's axis 1 against the right operand's axis 0, into a zero
accumulator. Its right operand is the transpose of a loaded weight matrix, so at output (0, n) the product is the sum
over the contraction coordinate k of the left operand at (0, k) times the weight at (n, k). -/

/-- The left operand of the first product is read at (row of the output, contraction coordinate) … -/
theorem squeeze_lhs_0 (i : S1x16.Idx) (q : dot_S1x256_S256x16_S1x16_1_0_0_1_n_n.contr.Idx) :
    (dot_S1x256_S256x16_S1x16_1_0_0_1_n_n.lhsIdx i q 0).val = (i 0).val := by
  unfold DotDims.lhsIdx
  rw [dif_neg (show ¬(0 : Fin S1x256.rank) ∈ dot_S1x256_S256x16_S1x16_1_0_0_1_n_n.lhsBatch by decide),
    dif_pos (show (0 : Fin S1x256.rank) ∈ dot_S1x256_S256x16_S1x16_1_0_0_1_n_n.lhsNonContracting by decide)]
  rfl
theorem squeeze_lhs_1 (i : S1x16.Idx) (q : dot_S1x256_S256x16_S1x16_1_0_0_1_n_n.contr.Idx) :
    (dot_S1x256_S256x16_S1x16_1_0_0_1_n_n.lhsIdx i q 1).val = (q ⟨0, by decide⟩).val :=
  dot_S1x256_S256x16_S1x16_1_0_0_1_n_n.lhsIdx_val_of_single rfl i q
/-- … and the right operand at (contraction coordinate, column of the output). -/
theorem squeeze_rhs_0 (i : S1x16.Idx) (q : dot_S1x256_S256x16_S1x16_1_0_0_1_n_n.contr.Idx) :
    (dot_S1x256_S256x16_S1x16_1_0_0_1_n_n.rhsIdx i q 0).val = (q ⟨0, by decide⟩).val :=
  dot_S1x256_S256x16_S1x16_1_0_0_1_n_n.rhsIdx_val_of_single rfl i q
theorem squeeze_rhs_1 (i : S1x16.Idx) (q : dot_S1x256_S256x16_S1x16_1_0_0_1_n_n.contr.Idx) :
    (dot_S1x256_S256x16_S1x16_1_0_0_1_n_n.rhsIdx i q 1).val = (i 1).val := by
  unfold DotDims.rhsIdx
  rw [dif_neg (show ¬(1 : Fin S256x16.rank) ∈ dot_S1x256_S256x16_S1x16_1_0_0_1_n_n.rhsBatch by decide),
    dif_pos (show (1 : Fin S256x16.rank) ∈ dot_S1x256_S256x16_S1x16_1_0_0_1_n_n.rhsNonContracting by decide)]
  rfl

/-- The first product at (0, s): the sum over the 256 channels of the row vector times the weight row `s`. -/
theorem squeeze_dot_apply (a : FVec Ideal S1x256 .bf16) (w : FVec Ideal S16x256 .bf16) (s : Fin 16) :
    matmul dot_S1x256_S256x16_S1x16_1_0_0_1_n_n none a
        (transpose S256x16 [1, 0] w transposes_S16x256_p1_0_S256x16) (constant S1x16 .f32 0x00000000#32) (ix2 (0 : Fin 1) s)
      = ∑ k : Fin 256, a (ix2 (0 : Fin 1) k) * w (ix2 s k) := by
  generalize hb : transpose S256x16 [1, 0] w transposes_S16x256_p1_0_S256x16 = b
  refine (Ideal.matmul_constant_zero_apply dot_S1x256_S256x16_S1x16_1_0_0_1_n_n none a b (ix2 (0 : Fin 1) s)).trans ?_
  rw [← Equiv.sum_comp (ValueIdx.contrEquiv1 dot_S1x256_S256x16_S1x16_1_0_0_1_n_n 256 rfl rfl).symm]
  refine Finset.sum_congr rfl fun k _ => ?_
  have hk := ValueIdx.contrEquiv1_symm_val dot_S1x256_S256x16_S1x16_1_0_0_1_n_n 256 rfl rfl k
  have el : dot_S1x256_S256x16_S1x16_1_0_0_1_n_n.lhsIdx (ix2 (0 : Fin 1) s)
      ((ValueIdx.contrEquiv1 dot_S1x256_S256x16_S1x16_1_0_0_1_n_n 256 rfl rfl).symm k) = ix2 (0 : Fin 1) k :=
    funext fun c => Fin.ext (by
      match c with
      | ⟨0, _⟩ => exact squeeze_lhs_0 _ _
      | ⟨1, _⟩ => exact (squeeze_lhs_1 _ _).trans hk)
  have er : dot_S1x256_S256x16_S1x16_1_0_0_1_n_n.rhsIdx (ix2 (0 : Fin 1) s)
      ((ValueIdx.contrEquiv1 dot_S1x256_S256x16_S1x16_1_0_0_1_n_n 256 rfl rfl).symm k) = ix2 k s :=
    funext fun c => Fin.ext (by
      match c with
      | ⟨0, _⟩ => exact (squeeze_rhs_0 _ _).trans hk
      | ⟨1, _⟩ => exact squeeze_rhs_1 _ _)
  rw [el, er, ← hb]
  refine congrArg (a (ix2 (0 : Fin 1) k) * ·) ?_
  exact transpose_apply [1, 0] w transposes_S16x256_p1_0_S256x16 (ix2 k s) (ix2 s k) (fun c => by
    match c with
    | ⟨0, _⟩ => rfl
    | ⟨1, _⟩ => rfl)

/-- The left operand of the second product is read at (row of the output, contraction coordinate) … -/
theorem excite_lhs_0 (i : S1x256.Idx) (q : dot_S1x16_S16x256_S1x256_1_0_0_1_n_n.contr.Idx) :
    (dot_S1x16_S16x256_S1x256_1_0_0_1_n_n.lhsIdx i q 0).val = (i 0).val := by
  unfold DotDims.lhsIdx
  rw [dif_neg (show ¬(0 : Fin S1x16.rank) ∈ dot_S1x16_S16x256_S1x256_1_0_0_1_n_n.lhsBatch by decide),
    dif_pos (show (0 : Fin S1x16.rank) ∈ dot_S1x16_S16x256_S1x256_1_0_0_1_n_n.lhsNonContracting by decide)]
  rfl
theorem excite_lhs_1 (i : S1x256.Idx) (q : dot_S1x16_S16x256_S1x256_1_0_0_1_n_n.contr.Idx) :
    (dot_S1x16_S16x256_S1x256_1_0_0_1_n_n.lhsIdx i q 1).val = (q ⟨0, by decide⟩).val :=
  dot_S1x16_S16x256_S1x256_1_0_0_1_n_n.lhsIdx_val_of_single rfl i q
/-- … and the right operand at (contraction coordinate, column of the output). -/
theorem excite_rhs_0 (i : S1x256.Idx) (q : dot_S1x16_S16x256_S1x256_1_0_0_1_n_n.contr.Idx) :
    (dot_S1x16_S16x256_S1x256_1_0_0_1_n_n.rhsIdx i q 0).val = (q ⟨0, by decide⟩).val :=
  dot_S1x16_S16x256_S1x256_1_0_0_1_n_n.rhsIdx_val_of_single rfl i q
theorem excite_rhs_1 (i : S1x256.Idx) (q : dot_S1x16_S16x256_S1x256_1_0_0_1_n_n.contr.Idx) :
    (dot_S1x16_S16x256_S1x256_1_0_0_1_n_n.rhsIdx i q 1).val = (i 1).val := by
  unfold DotDims.rhsIdx
  rw [dif_neg (show ¬(1 : Fin S16x256.rank) ∈ dot_S1x16_S16x256_S1x256_1_0_0_1_n_n.rhsBatch by decide),
    dif_pos (show (1 : Fin S16x256.rank) ∈ dot_S1x16_S16x256_S1x256_1_0_0_1_n_n.rhsNonContracting by decide)]
  rfl

/-- The second product at (0, c): the sum over the 16 squeezed channels of the row vector times the weight row `c`. -/
theorem excite_dot_apply (a : FVec Ideal S1x16 .bf16) (w : FVec Ideal S256x16 .bf16) (c : Fin 256) :
    matmul dot_S1x16_S16x256_S1x256_1_0_0_1_n_n none a
        (transpose S16x256 [1, 0] w transposes_S256x16_p1_0_S16x256) (constant S1x256 .f32 0x00000000#32) (ix2 (0 : Fin 1) c)
      = ∑ s : Fin 16, a (ix2 (0 : Fin 1) s) * w (ix2 c s) := by
  generalize hb : transpose S16x256 [1, 0] w transposes_S256x16_p1_0_S16x256 = b
  refine (Ideal.matmul_constant_zero_apply dot_S1x16_S16x256_S1x256_1_0_0_1_n_n none a b (ix2 (0 : Fin 1) c)).trans ?_
  rw [← Equiv.sum_comp (ValueIdx.contrEquiv1 dot_S1x16_S16x256_S1x256_1_0_0_1_n_n 16 rfl rfl).symm]
  refine Finset.sum_congr rfl fun s _ => ?_
  have hs := ValueIdx.contrEquiv1_symm_val dot_S1x16_S16x256_S1x256_1_0_0_1_n_n 16 rfl rfl s
  have el : dot_S1x16_S16x256_S1x256_1_0_0_1_n_n.lhsIdx (ix2 (0 : Fin 1) c)
      ((ValueIdx.contrEquiv1 dot_S1x16_S16x256_S1x256_1_0_0_1_n_n 16 rfl rfl).symm s) = ix2 (0 : Fin 1) s :=
    funext fun d => Fin.ext (by
      match d with
      | ⟨0, _⟩ => exact excite_lhs_0 _ _
      | ⟨1, _⟩ => exact (excite_lhs_1 _ _).trans hs)
  have er : dot_S1x16_S16x256_S1x256_1_0_0_1_n_n.rhsIdx (ix2 (0 : Fin 1) c)
      ((ValueIdx.contrEquiv1 dot_S1x16_S16x256_S1x256_1_0_0_1_n_n 16 rfl rfl).symm s) = ix2 s c :=
    funext fun d => Fin.ext (by
      match d with
      | ⟨0, _⟩ => exact (excite_rhs_0 _ _).trans hs
      | ⟨1, _⟩ => exact excite_rhs_1 _ _)
  rw [el, er, ← hb]
  refine congrArg (a (ix2 (0 : Fin 1) s) * ·) ?_
  exact transpose_apply [1, 0] w transposes_S256x16_p1_0_S16x256 (ix2 s c) (ix2 c s) (fun d => by
    match d with
    | ⟨0, _⟩ => rfl
    | ⟨1, _⟩ => rfl)

/-! ## The pooled means, and the two affine maps -/

/-- The channel means of the block's one image: the two lane sums times the f32 word of 2^-14. -/
def pooled (x0 : Vec Ideal S1x256x128x128 .f32) : FVec Ideal S1x256 .f32 :=
  mulf
    (multiReduction .add [2] S1x256
      (multiReduction .add [3] S1x256x128 x0 0x00000000#32 reduces_S1x256x128x128_S1x256x128 (.inl rfl) rfl)
      0x00000000#32 reduces_S1x256x128_S1x256 (.inl rfl) rfl)
    (broadcast S1x256 (Scalar.ofBits .f32 0x38800000#32))

/-- The pooled mean of channel `k`: the sum over the 128 x 128 positions times the word of 2^-14. -/
theorem pooled_apply (x0 : Vec Ideal S1x256x128x128 .f32) (k : Fin 256) :
    pooled x0 (ix2 (0 : Fin 1) k)
      = (∑ h : Fin 128, ∑ w : Fin 128, x0 (ix4 (0 : Fin 1) k h w)) * Ideal.ofBits .f32 0x38800000#32 := by
  unfold pooled
  refine (mulf_apply _ _ _).trans ?_
  refine congrArg (· * Ideal.ofBits .f32 0x38800000#32) ?_
  refine (sum_axis2_apply _ _ _ k).trans ?_
  exact Finset.sum_congr rfl fun h _ => sum_axis3_apply x0 _ _ k h

/-- The first affine map: the pooled means against the first weight matrix, plus the first bias. -/
def pre1 (x0 : Vec Ideal S1x256x128x128 .f32) (x1 : Vec Ideal S16x256 .f32) (x2 : Vec Ideal S1x16 .f32) :
    FVec Ideal S1x16 .f32 :=
  addf
    (matmul dot_S1x256_S256x16_S1x16_1_0_0_1_n_n none (truncf .bf16 (pooled x0) bitsLt_bf16_f32)
      (transpose S256x16 [1, 0] (truncf .bf16 x1 bitsLt_bf16_f32) transposes_S16x256_p1_0_S256x16)
      (constant S1x16 .f32 0x00000000#32))
    (shapeCast S1x16 x2 shapeCasts_S1x16_S1x16)

theorem pre1_apply (x0 : Vec Ideal S1x256x128x128 .f32) (x1 : Vec Ideal S16x256 .f32) (x2 : Vec Ideal S1x16 .f32)
    (s : Fin 16) :
    pre1 x0 x1 x2 (ix2 (0 : Fin 1) s)
      = (∑ k : Fin 256,
          ((∑ h : Fin 128, ∑ w : Fin 128, x0 (ix4 (0 : Fin 1) k h w)) * Ideal.ofBits .f32 0x38800000#32)
            * x1 (ix2 s k))
        + x2 (ix2 (0 : Fin 1) s) := by
  unfold pre1
  refine (addf_apply _ _ _).trans ?_
  refine congrArg₂ (· + ·) ?_ ?_
  · refine (squeeze_dot_apply _ _ s).trans ?_
    refine Finset.sum_congr rfl fun k _ => ?_
    exact congrArg (· * x1 (ix2 s k)) (pooled_apply x0 k)
  · exact congrFun (shapeCast_self x2 shapeCasts_S1x16_S1x16) _

/-- The squeezed activations: the leaky rectifier of the first affine map, as the kernel spells it (a select on
    `≥ 0` between the value and the word of 0.2 times it). -/
def hidden (x0 : Vec Ideal S1x256x128x128 .f32) (x1 : Vec Ideal S16x256 .f32) (x2 : Vec Ideal S1x16 .f32) :
    FVec Ideal S1x16 .f32 :=
  select (cmpf .oge (pre1 x0 x1 x2) (broadcast S1x16 (Scalar.ofBits .f32 0x00000000#32))) (pre1 x0 x1 x2)
    (mulf (broadcast S1x16 (Scalar.ofBits .f32 0x3E4CCCCD#32)) (pre1 x0 x1 x2))

/-- At an index it is the specification's rectifier of the first affine map there. -/
theorem hidden_apply (x0 : Vec Ideal S1x256x128x128 .f32) (x1 : Vec Ideal S16x256 .f32) (x2 : Vec Ideal S1x16 .f32)
    (i : S1x16.Idx) : hidden x0 x1 x2 i = Cert.Gate.leaky (pre1 x0 x1 x2 i) := rfl

/-- The second affine map: the squeezed activations against the second weight matrix, plus the second bias. -/
def pre2 (x0 : Vec Ideal S1x256x128x128 .f32) (x1 : Vec Ideal S16x256 .f32) (x2 : Vec Ideal S1x16 .f32)
    (x3 : Vec Ideal S256x16 .f32) (x4 : Vec Ideal S1x256 .f32) : FVec Ideal S1x256 .f32 :=
  addf
    (matmul dot_S1x16_S16x256_S1x256_1_0_0_1_n_n none (truncf .bf16 (hidden x0 x1 x2) bitsLt_bf16_f32)
      (transpose S16x256 [1, 0] (truncf .bf16 x3 bitsLt_bf16_f32) transposes_S256x16_p1_0_S16x256)
      (constant S1x256 .f32 0x00000000#32))
    (shapeCast S1x256 x4 shapeCasts_S1x256_S1x256)

theorem pre2_apply (x0 : Vec Ideal S1x256x128x128 .f32) (x1 : Vec Ideal S16x256 .f32) (x2 : Vec Ideal S1x16 .f32)
    (x3 : Vec Ideal S256x16 .f32) (x4 : Vec Ideal S1x256 .f32) (c : Fin 256) :
    pre2 x0 x1 x2 x3 x4 (ix2 (0 : Fin 1) c)
      = (∑ s : Fin 16, Cert.Gate.leaky (pre1 x0 x1 x2 (ix2 (0 : Fin 1) s)) * x3 (ix2 c s))
        + x4 (ix2 (0 : Fin 1) c) := by
  unfold pre2
  refine (addf_apply _ _ _).trans ?_
  refine congrArg₂ (· + ·) ?_ ?_
  · refine (excite_dot_apply _ _ c).trans ?_
    exact Finset.sum_congr rfl fun s _ => rfl
  · exact congrFun (shapeCast_self x4 shapeCasts_S1x256_S1x256) _

/-! ## The reduce kernel's payload -/

/-- The stored value is the logistic function of the second affine map, viewed [1,1,256]. -/
theorem k0_pay1_eq (x0 : Vec Ideal S1x256x128x128 .f32) (x1 : Vec Ideal S16x256 .f32) (x2 : Vec Ideal S1x16 .f32)
    (x3 : Vec Ideal S256x16 .f32) (x4 : Vec Ideal S1x256 .f32) :
    k0_pay1 (F := Ideal) x0 x1 x2 x3 x4
      = shapeCast S1x1x256 (logistic (pre2 x0 x1 x2 x3 x4)) shapeCasts_S1x256_S1x1x256 := rfl

/-- A [1,256] vector viewed [1,1,256] reads (0, c) at (0, 0, c). -/
theorem view_1x1x256_apply (v : FVec Ideal S1x256 .f32) (c : Fin 256) :
    shapeCast S1x1x256 v shapeCasts_S1x256_S1x1x256 (ix3 (0 : Fin 1) (0 : Fin 1) c) = v (ix2 (0 : Fin 1) c) := by
  refine (shapeCast_addUnit_apply ![1, 256] v shapeCasts_S1x256_S1x1x256 (ix3 (0 : Fin 1) (0 : Fin 1) c)).trans ?_
  refine congrArg v (funext fun a => ?_)
  match a with
  | ⟨0, _⟩ => rfl
  | ⟨1, _⟩ => rfl

theorem reduce_payload_apply [Cert.KernelIdeal.Facts]
    (x0 : Vec Ideal S1x256x128x128 .f32) (x1 : Vec Ideal S16x256 .f32) (x2 : Vec Ideal S1x16 .f32)
    (x3 : Vec Ideal S256x16 .f32) (x4 : Vec Ideal S1x256 .f32) (c : Fin 256) :
    k0_pay1 (F := Ideal) x0 x1 x2 x3 x4 (ix3 (0 : Fin 1) (0 : Fin 1) c)
      = Ideal.logistic
          ((∑ s : Fin 16,
              Cert.Gate.leaky
                ((∑ k : Fin 256,
                    ((∑ h : Fin 128, ∑ w : Fin 128, x0 (ix4 (0 : Fin 1) k h w)) * Ideal.ofBits .f32 0x38800000#32)
                      * x1 (ix2 s k))
                  + x2 (ix2 (0 : Fin 1) s))
                * x3 (ix2 c s))
            + x4 (ix2 (0 : Fin 1) c)) := by
  rw [k0_pay1_eq]
  refine (view_1x1x256_apply _ c).trans ?_
  show Ideal.logistic (pre2 x0 x1 x2 x3 x4 (ix2 (0 : Fin 1) c)) = _
  refine congrArg Ideal.logistic ?_
  refine (pre2_apply x0 x1 x2 x3 x4 c).trans ?_
  refine congrArg (· + x4 (ix2 (0 : Fin 1) c)) ?_
  refine Finset.sum_congr rfl fun s _ => ?_
  exact congrArg (fun y => Cert.Gate.leaky y * x3 (ix2 c s)) (pre1_apply x0 x1 x2 s)

/-! ## The scale kernel's payload -/

/-- Each element of the image block times its channel's gate: the gate block [1,256,1,1] is broadcast over the
    32 x 128 positions. -/
theorem scale_payload_apply [Cert.KernelIdeal.Facts]
    (x0 : Vec Ideal S1x256x32x128 .f32) (x1 : Vec Ideal S1x256x1x1 .f32) (c : Fin 256) (h : Fin 32) (w : Fin 128) :
    k1_pay1 (F := Ideal) x0 x1 (ix4 (0 : Fin 1) c h w)
      = x0 (ix4 (0 : Fin 1) c h w) * x1 (ix4 (0 : Fin 1) c (0 : Fin 1) (0 : Fin 1)) := by
  unfold k1_pay1
  refine (mulf_apply _ _ _).trans ?_
  refine congrArg (x0 (ix4 (0 : Fin 1) c h w) * ·) ?_
  rw [shapeCast_self, shapeCast_self]
  exact broadcastTo_apply x1 broadcasts_S1x256x1x1_S1x256x32x128 (ix4 (0 : Fin 1) c h w)
    (ix4 (0 : Fin 1) c (0 : Fin 1) (0 : Fin 1)) (fun a => by
      match a with
      | ⟨0, _⟩ => show 0 = if (1 : Nat) = 1 then 0 else _; rw [if_pos rfl]
      | ⟨1, _⟩ => show c.val = if (256 : Nat) = 1 then 0 else c.val; rw [if_neg (by decide)]
      | ⟨2, _⟩ => show 0 = if (1 : Nat) = 1 then 0 else _; rw [if_pos rfl]
      | ⟨3, _⟩ => show 0 = if (1 : Nat) = 1 then 0 else _; rw [if_pos rfl])

end Cert.KernelIdeal.Pay

end
-- ==== Proof.NamedRun.lean ====
/-
  The idealized kernel's run with its result array named.

  The program is four segments: two reshapes of the bias vectors, the pooling-and-gate region, one reshape of the
  gate array, the scaling region. Every weakly fair execution from a memory with zero counters terminates without a
  fault, and in the final state the result array holds what the scaling region's write-backs leave
  (`(dat1 …).arrAt 2 N`, the fold of the 32 flushed blocks over the array's contents at entry), while the five
  argument arrays hold their launch contents. The value of that fold is read elsewhere; this module only names it.
-/
import proofs.«115423_j43447889166408_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four segments, read at the end: the result array at the scaling region's folded write-backs, the
    arguments as launched. -/
theorem run : θ_run defs (onTc (τ := τ) (main (F := F))) ⟨m, fun _ => 0, ρ⟩ (fun r => ∀ c : Dev nD,
      r.2.mem ((c.tc : Thread nD τ).loc main_v4) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Named

end
-- ==== Proof.Entry.lean ====
/-
  What the arrays hold when each region is entered.

  Before the pooling region the program reshapes the two bias vectors into one-row matrices; between the regions
  it reshapes the gate array [8,1,256] into [8,256,1,1]. So at the pooling region's entry the image batch and the
  two weight matrices are as launched and the two one-row biases are the reshaped bias vectors; at the scaling
  region's entry the image batch is as launched and the gate operand is the reshaped array the pooling region's
  write-backs left. A reshape keeps row-major positions, so the one-row bias at (0, s) is the vector at s and the
  reshaped gate at (b, c, 0, 0) is the pooled array at (b, 0, c).
-/
import proofs.«115423_j43447889166408_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Entry

open Idealize.ShloMosaic Idealize.ShloMosaic.TcCoe Idealize.ShloMosaic.Tactic Idealize.ShloMosaic.StableHlo
open Idealize.ShloMosaic.ValueIdx
open Idealize.SL Idealize.SL.Sem
open Cert.KernelIdeal Cert.KernelIdeal.Gen

/-! ## Reshapes read at an index -/

section Reshapes
variable {α : Type}

/-- A vector of 16 viewed as one row: the entry (0, s) is the vector's entry s. -/
theorem row16_apply (v : S16.Idx → α) (h : S16.ShapeCasts S1x16) (s : Fin 16) :
    shapeCast S1x16 v h (ix2 (0 : Fin 1) s) = v (ix1 s) := by
  refine shapeCast_apply v h _ _ ?_
  rw [Shape.rowMajor_val_one, Shape.rowMajor_val_two]
  show s.val = 0 * 16 + s.val
  omega

/-- A vector of 256 viewed as one row: the entry (0, c) is the vector's entry c. -/
theorem row256_apply (v : S256.Idx → α) (h : S256.ShapeCasts S1x256) (c : Fin 256) :
    shapeCast S1x256 v h (ix2 (0 : Fin 1) c) = v (ix1 c) := by
  refine shapeCast_apply v h _ _ ?_
  rw [Shape.rowMajor_val_one, Shape.rowMajor_val_two]
  show c.val = 0 * 256 + c.val
  omega

/-- The array [8,1,256] viewed as [8,256,1,1]: the entry (b, c, 0, 0) is the entry (b, 0, c). -/
theorem gate4_apply (v : S8x1x256.Idx → α) (h : S8x1x256.ShapeCasts S8x256x1x1) (b : Fin 8) (c : Fin 256) :
    shapeCast S8x256x1x1 v h (ix4 b c (0 : Fin 1) (0 : Fin 1)) = v (ix3 b (0 : Fin 1) c) := by
  refine shapeCast_apply v h _ _ ?_
  rw [Shape.rowMajor_val_three, Shape.rowMajor_val_four]
  show (b.val * 1 + 0) * 256 + c.val = ((b.val * 256 + c.val) * 1 + 0) * 1 + 0
  omega

end Reshapes

/-! ## The arrays at the regions' entries -/

variable {F : FTy → Type} [FloatOps F]
variable (m : (ℓ : Loc nD τ sig) → Buf (Elt F) ℓ) (ρ : Dev nD → PrngReg)

/-- At the pooling region's entry the image batch is as launched. -/
theorem pool_entry_x (c : Dev nD) : V1 m ρ c main_arg0 = m ((c : Thread nD τ).loc main_arg0) := by
  show StableHlo.after hostOps0 (W0 m ρ c) (Proc.devRef .tc main_arg0) = _
  after_results
/-- … and so is the first weight matrix, -/
theorem pool_entry_w1 (c : Dev nD) : V1 m ρ c main_arg1 = m ((c : Thread nD τ).loc main_arg1) := by
  show StableHlo.after hostOps0 (W0 m ρ c) (Proc.devRef .tc main_arg1) = _
  after_results
/-- … and the second. -/
theorem pool_entry_w2 (c : Dev nD) : V1 m ρ c main_arg3 = m ((c : Thread nD τ).loc main_arg3) := by
  show StableHlo.after hostOps0 (W0 m ρ c) (Proc.devRef .tc main_arg3) = _
  after_results
/-- The first one-row bias is the reshaped first bias vector. -/
theorem pool_entry_b1 (c : Dev nD) :
    V1 m ρ c main_v0 = shapeCast S1x16 (m ((c : Thread nD τ).loc main_arg2)) shapeCasts_S16_S1x16 := by
  show StableHlo.after hostOps0 (W0 m ρ c) (Proc.devRef .tc main_v0) = _
  after_results
  rfl
/-- The second one-row bias is the reshaped second bias vector. -/
theorem pool_entry_b2 (c : Dev nD) :
    V1 m ρ c main_v1 = shapeCast S1x256 (m ((c : Thread nD τ).loc main_arg4)) shapeCasts_S256_S1x256 := by
  show StableHlo.after hostOps0 (W0 m ρ c) (Proc.devRef .tc main_v1) = _
  after_results
  rfl

/-- At the scaling region's entry the image batch is still as launched: neither the pooling region nor the reshape
    writes it. -/
theorem scale_entry_x (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans
    (W4_main_arg0 m ρ c)

/-- The gate operand is the reshape of what the pooling region's write-backs left. -/
theorem scale_entry_gate (c : Dev nD) :
    V3 m ρ c main_v3
      = shapeCast S8x256x1x1 ((dat0 (V1 m ρ) c).arrAt 5 cfg0.N) shapeCasts_S8x1x256_S8x256x1x1 := by
  rw [← W2_arr m ρ c 5]
  show StableHlo.after hostOps1 (W2 m ρ c) (Proc.devRef .tc main_v3) = _
  after_results
  rfl

end Cert.KernelIdeal.Entry

end
-- ==== Proof.PoolRegion.lean ====
/-
  The pooling region: what its 8 write-backs leave in the gate array [8,1,256].

  The grid is the 8 images. At point b the body reads the whole image b (256 channels of 128 x 128), the two weight
  matrices and the two one-row biases, and writes the 256 gates of image b into row b of the gate array. Each block
  is therefore the restriction of ONE function of the five arrays the region finds at entry — the gate of the
  specification, with the one-row biases read at row 0 — and the 8 blocks tile the array. The body's arithmetic at an
  index is taken as a hypothesis here (`hpay`) and supplied where the pieces are put together.
-/
import proofs.«115423_j43447889166408_2_alg».proof.Proof.Gen.KernelIdeal.Frame
import proofs.«115423_j43447889166408_2_alg».proof.Proof.Gate
import Idealize.ShloMosaic.Lib.Pipeline.Value
import Idealize.ShloMosaic.Lib.ValueIdx

set_option maxRecDepth 16384

noncomputable section

open scoped BigOperators

namespace Cert.KernelIdeal.Pool

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The gate array as one function of the five arrays: at (b, 0, c) the specification's gate of image b and
    channel c, the biases being the one-row matrices' row 0. -/
def G (X : S8x256x128x128.Idx → EReal) (W1 : S16x256.Idx → EReal) (B1 : S1x16.Idx → EReal)
    (W2 : S256x16.Idx → EReal) (B2 : S1x256.Idx → EReal) : S8x1x256.Idx → EReal :=
  fun i => Cert.Gate.gate X W1 (fun j => B1 (ix2 (0 : Fin 1) (⟨(j 0).val, (j 0).isLt⟩ : Fin 16))) W2
    (fun j => B2 (ix2 (0 : Fin 1) (⟨(j 0).val, (j 0).isLt⟩ : Fin 256)))
    (⟨(i 0).val, (i 0).isLt⟩ : Fin 8) (⟨(i 2).val, (i 2).isLt⟩ : Fin 256)

/-- The printed index maps, decided over the 8 points: the image window and the gate window follow the point, the
    weights' and biases' windows stay at block 0. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- Every image is some point's block. -/
theorem idx_onto : ∀ q0 : Fin 8, ∃ t : Fin cfg0.N, win0_5.index t = ![q0.val, 0, 0] :=
  (by decide +kernel : ∀ q0 : Fin 8, ∃ t : Fin grid0.N, win0_5.index t = ![q0.val, 0, 0])

theorem point_lt (t : Fin cfg0.N) : t.val < 8 := by
  have h := t.isLt
  have hN : cfg0.N = 8 := N_0
  omega

/-! ## The input blocks at point `t`, read off the arrays -/

/-- The image block at point `t` is image `t`. -/
theorem read_x (c : Dev nD) (t : Fin cfg0.N) (k : Fin 256) (h w : Fin 128) :
    iblk0 V c 0 t (ix4 (0 : Fin 1) k h w) = V c main_arg0 (ix4 (⟨t.val, point_lt t⟩ : Fin 8) k h w) := by
  obtain ⟨e0, e1, e2, e3, -⟩ := idx_facts t
  show V c main_arg0 (((cfg0.win 0).blk t).view.emb (ix4 (0 : Fin 1) k h w)) = _
  refine congrArg (V c main_arg0) (funext fun a => Fin.ext ?_)
  match a with
  | ⟨0, _⟩ => show win0_0.index t (0 : Fin 4) * 1 + 1 * 0 = t.val; omega
  | ⟨1, _⟩ => show win0_0.index t (1 : Fin 4) * 256 + 1 * k.val = k.val; omega
  | ⟨2, _⟩ => show win0_0.index t (2 : Fin 4) * 128 + 1 * h.val = h.val; omega
  | ⟨3, _⟩ => show win0_0.index t (3 : Fin 4) * 128 + 1 * w.val = w.val; omega

/-- The first weight matrix's block is the whole matrix. -/
theorem read_w1 (c : Dev nD) (t : Fin cfg0.N) (y : S16x256.Idx) : iblk0 V c 1 t y = V c main_arg1 y := by
  obtain ⟨-, -, -, -, e0, e1, -⟩ := idx_facts t
  show V c main_arg1 (((cfg0.win 1).blk t).view.emb y) = _
  refine congrArg (V c main_arg1) (funext fun a => Fin.ext ?_)
  match a with
  | ⟨0, _⟩ => show win0_1.index t (0 : Fin 2) * 16 + 1 * (y 0).val = (y 0).val; omega
  | ⟨1, _⟩ => show win0_1.index t (1 : Fin 2) * 256 + 1 * (y 1).val = (y 1).val; omega

/-- The first one-row bias's block is the whole row. -/
theorem read_b1 (c : Dev nD) (t : Fin cfg0.N) (y : S1x16.Idx) : iblk0 V c 2 t y = V c main_v0 y := by
  obtain ⟨-, -, -, -, -, -, e0, e1, -⟩ := idx_facts t
  show V c main_v0 (((cfg0.win 2).blk t).view.emb y) = _
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 16 + 1 * (y 1).val = (y 1).val; omega

/-- The second weight matrix's block is the whole matrix. -/
theorem read_w2 (c : Dev nD) (t : Fin cfg0.N) (y : S256x16.Idx) : iblk0 V c 3 t y = V c main_arg3 y := by
  obtain ⟨-, -, -, -, -, -, -, -, e0, e1, -⟩ := idx_facts t
  show V c main_arg3 (((cfg0.win 3).blk t).view.emb y) = _
  refine congrArg (V c main_arg3) (funext fun a => Fin.ext ?_)
  match a with
  | ⟨0, _⟩ => show win0_3.index t (0 : Fin 2) * 256 + 1 * (y 0).val = (y 0).val; omega
  | ⟨1, _⟩ => show win0_3.index t (1 : Fin 2) * 16 + 1 * (y 1).val = (y 1).val; omega

/-- The second one-row bias's block is the whole row. -/
theorem read_b2 (c : Dev nD) (t : Fin cfg0.N) (y : S1x256.Idx) : iblk0 V c 4 t y = V c main_v1 y := by
  obtain ⟨-, -, -, -, -, -, -, -, -, -, e0, e1, -⟩ := idx_facts t
  show V c main_v1 (((cfg0.win 4).blk t).view.emb y) = _
  refine congrArg (V c main_v1) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- The gate block's element c at point `t` sits at (t, 0, c) of the gate array. -/
theorem emb_gate (t : Fin cfg0.N) (cc : Fin 256) :
    ((cfg0.win 5).blk t).view.emb (ix3 (0 : Fin 1) (0 : Fin 1) cc)
      = ix3 (⟨t.val, point_lt t⟩ : Fin 8) (0 : Fin 1) cc := by
  obtain ⟨-, -, -, -, -, -, -, -, -, -, -, -, e0, e1, e2⟩ := idx_facts t
  funext a; apply Fin.ext
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 256 + 1 * cc.val = cc.val; omega

/-- What point `t` writes back is block `t` of `G` of the five arrays the region finds. -/
theorem flushed_eq
    (hpay : ∀ (x0 : Vec Ideal S1x256x128x128 .f32) (x1 : Vec Ideal S16x256 .f32) (x2 : Vec Ideal S1x16 .f32)
      (x3 : Vec Ideal S256x16 .f32) (x4 : Vec Ideal S1x256 .f32) (c : Fin 256),
      k0_pay1 (F := Ideal) x0 x1 x2 x3 x4 (ix3 (0 : Fin 1) (0 : Fin 1) c)
        = Ideal.logistic
            ((∑ s : Fin 16,
                Cert.Gate.leaky
                  ((∑ k : Fin 256,
                      ((∑ h : Fin 128, ∑ w : Fin 128, x0 (ix4 (0 : Fin 1) k h w)) * Ideal.ofBits .f32 0x38800000#32)
                        * x1 (ix2 s k))
                    + x2 (ix2 (0 : Fin 1) s))
                  * x3 (ix2 c s))
              + x4 (ix2 (0 : Fin 1) c)))
    (c : Dev nD) (t : Fin cfg0.N) :
    (dat0 V c).flushed 5 t = ((cfg0.win 5).blk t).view.read (Elt Ideal)
      (G (V c main_arg0) (V c main_arg1) (V c main_v0) (V c main_arg3) (V c main_v1)) := by
  show (cfg0.win 5).cut (grid0.coords t) ((dat0 V c).after 5 t) = _
  rw [after0_5]
  unfold out0_5
  rw [View.canon_unit_zero zero3]
  simp only [View.ld_unit_zero (S := S1x256x128x128) zero4, View.ld_unit_zero (S := S16x256) zero2,
    View.ld_unit_zero (S := S1x16) zero2, View.ld_unit_zero (S := S256x16) zero2, View.ld_unit_zero (S := S1x256) zero2]
  refine funext fun (j : S1x1x256.Idx) => ?_
  obtain ⟨a, a', cc, rfl⟩ : ∃ (a a' : Fin 1) (cc : Fin 256), j = ix3 a a' cc := ⟨j 0, j 1, j 2, eq_ix3 j⟩
  have ha : a = 0 := Subsingleton.elim _ _
  have ha' : a' = 0 := Subsingleton.elim _ _
  subst ha ha'
  refine (hpay (iblk0 V c 0 t) (iblk0 V c 1 t) (iblk0 V c 2 t) (iblk0 V c 3 t) (iblk0 V c 4 t) cc).trans ?_
  simp only [read_x, read_w1, read_b1, read_w2, read_b2]
  show _ = G (V c main_arg0) (V c main_arg1) (V c main_v0) (V c main_arg3) (V c main_v1)
    (((cfg0.win 5).blk t).view.emb (ix3 (0 : Fin 1) (0 : Fin 1) cc))
  rw [emb_gate]
  rfl

/-- An index of the gate array is in point `t`'s block iff each coordinate is in the block's range on its axis. -/
theorem mem_blk (t : Fin cfg0.N) (i : S8x1x256.Idx) :
    i ∈ ((cfg0.win 5).blk t).view.set ↔ ∀ a : Fin 3, win0_5.index t a * S1x1x256.size a ≤ (i a).val
      ∧ (i a).val < win0_5.index t a * S1x1x256.size a + S1x1x256.size a := by
  show i ∈ ((View.whole main_v2).slice (win0_5.rect t)).set ↔ _
  rw [View.set_slice_whole, Rect.mem_set_unit]
  exact Iff.rfl

/-- The blocks tile the gate array: row b is the block of image b. -/
theorem cover (i : S8x1x256.Idx) :
    ∃ t : Fin cfg0.N, (cfg0.win 5).flush t = true ∧ i ∈ ((cfg0.win 5).blk t).view.set := by
  have hi0 : (i 0).val < 8 := (i 0).isLt
  have hi1 : (i 1).val < 1 := (i 1).isLt
  have hi2 : (i 2).val < 256 := (i 2).isLt
  obtain ⟨t, ht⟩ := idx_onto ⟨(i 0).val, hi0⟩
  have q0 : win0_5.index t (0 : Fin 3) = (i 0).val := congrFun ht 0
  have q1 : win0_5.index t (1 : Fin 3) = 0 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 256 ≤ (i 2).val ∧ (i 2).val < win0_5.index t (2 : Fin 3) * 256 + 256; omega

/-- The gate array after the region: `G` of the five arrays found at entry. -/
theorem final
    (hpay : ∀ (x0 : Vec Ideal S1x256x128x128 .f32) (x1 : Vec Ideal S16x256 .f32) (x2 : Vec Ideal S1x16 .f32)
      (x3 : Vec Ideal S256x16 .f32) (x4 : Vec Ideal S1x256 .f32) (c : Fin 256),
      k0_pay1 (F := Ideal) x0 x1 x2 x3 x4 (ix3 (0 : Fin 1) (0 : Fin 1) c)
        = Ideal.logistic
            ((∑ s : Fin 16,
                Cert.Gate.leaky
                  ((∑ k : Fin 256,
                      ((∑ h : Fin 128, ∑ w : Fin 128, x0 (ix4 (0 : Fin 1) k h w)) * Ideal.ofBits .f32 0x38800000#32)
                        * x1 (ix2 s k))
                    + x2 (ix2 (0 : Fin 1) s))
                  * x3 (ix2 c s))
              + x4 (ix2 (0 : Fin 1) c)))
    (c : Dev nD) :
    (dat0 V c).arrAt 5 cfg0.N = G (V c main_arg0) (V c main_arg1) (V c main_v0) (V c main_arg3) (V c main_v1) :=
  (dat0 V c).arrAt_eq_of_cover 5 _ (fun t _ => flushed_eq V hpay c t) cover

end Cert.KernelIdeal.Pool

end
-- ==== Proof.ScaleRegion.lean ====
/-
  The scaling region: what its 32 write-backs leave in the result array.

  The grid is 8 images by 4 bands of 32 rows. At point (b, q) the body multiplies the block of the image batch
  at image b, rows 32q … 32q+31 (all 256 channels, all 128 columns) by the gate block of image b, broadcast along
  rows and columns, and the block is written back to the same place of the result array. Every block is therefore
  the restriction of ONE function of the two arrays the region finds at entry,
      i ↦ X i * Y (i 0, i 1, 0, 0),
  and the 32 blocks tile the array, so the array ends holding that function. The body's arithmetic at an index is
  taken as a hypothesis here (`hpay`) and supplied where the pieces are put together.
-/
import proofs.«115423_j43447889166408_2_alg».proof.Proof.Gen.KernelIdeal.Frame
import Idealize.ShloMosaic.Lib.Pipeline.Value
import Idealize.ShloMosaic.Lib.ValueIdx

set_option maxRecDepth 16384

noncomputable section

namespace Cert.KernelIdeal.Scale

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero4 : (![0, 0, 0, 0] : Fin 4 → Nat) = fun _ => 0 := funext fun a => by fin_cases a <;> rfl

/-- Every element of `X` times the entry of `Y` for its image and channel. -/
def G (X : S8x256x128x128.Idx → EReal) (Y : S8x256x1x1.Idx → EReal) : S8x256x128x128.Idx → EReal :=
  fun i => X i * Y (ix4 (⟨(i 0).val, (i 0).isLt⟩ : Fin 8) (⟨(i 1).val, (i 1).isLt⟩ : Fin 256) (0 : Fin 1) (0 : Fin 1))

/-- The body's product, as a function of the block index: the image block's element times the gate block's entry
    for its channel. -/
theorem pay_fun
    (hpay : ∀ (x0 : Vec Ideal S1x256x32x128 .f32) (x1 : Vec Ideal S1x256x1x1 .f32) (c : Fin 256) (h : Fin 32) (w : Fin 128),
      k1_pay1 (F := Ideal) x0 x1 (ix4 (0 : Fin 1) c h w)
        = x0 (ix4 (0 : Fin 1) c h w) * x1 (ix4 (0 : Fin 1) c (0 : Fin 1) (0 : Fin 1)))
    (x0 : Vec Ideal S1x256x32x128 .f32) (x1 : Vec Ideal S1x256x1x1 .f32) :
    k1_pay1 (F := Ideal) x0 x1
      = fun j => x0 j * x1 (ix4 (0 : Fin 1) (⟨(j 1).val, (j 1).isLt⟩ : Fin 256) (0 : Fin 1) (0 : Fin 1)) := by
  funext j
  obtain ⟨a, c, h, w, rfl⟩ : ∃ (a : Fin 1) (c : Fin 256) (h : Fin 32) (w : Fin 128), j = ix4 a c h w :=
    ⟨j 0, j 1, j 2, j 3, eq_ix4 j⟩
  have ha : a = 0 := Subsingleton.elim _ _
  subst ha
  exact hpay x0 x1 c h w

/-- The printed index maps, decided over the 32 points: the image block moves with the result block, the gate
    block follows the image coordinate only, and the result block's channel and column coordinates stay 0. -/
theorem idx_facts : ∀ t : Fin cfg1.N,
    win1_0.index t (0 : Fin 4) = win1_2.index t (0 : Fin 4) ∧ win1_0.index t (1 : Fin 4) = win1_2.index t (1 : Fin 4)
    ∧ win1_0.index t (2 : Fin 4) = win1_2.index t (2 : Fin 4) ∧ win1_0.index t (3 : Fin 4) = win1_2.index t (3 : Fin 4)
    ∧ win1_1.index t (0 : Fin 4) = win1_2.index t (0 : Fin 4) ∧ win1_1.index t (1 : Fin 4) = 0
    ∧ win1_1.index t (2 : Fin 4) = 0 ∧ win1_1.index t (3 : Fin 4) = 0
    ∧ win1_2.index t (1 : Fin 4) = 0 ∧ win1_2.index t (3 : Fin 4) = 0 :=
  (by decide +kernel : ∀ t : Fin grid1.N, _)

/-- Every (image, band) pair is some point's block. -/
theorem idx_onto : ∀ (q0 : Fin 8) (q2 : Fin 4), ∃ t : Fin cfg1.N, win1_2.index t = ![q0.val, 0, q2.val, 0] :=
  (by decide +kernel : ∀ (q0 : Fin 8) (q2 : Fin 4), ∃ t : Fin grid1.N, win1_2.index t = ![q0.val, 0, q2.val, 0])

/-- What point `t` writes back is block `t` of `G` of the two arrays the region finds. -/
theorem flushed_eq
    (hpay : ∀ (x0 : Vec Ideal S1x256x32x128 .f32) (x1 : Vec Ideal S1x256x1x1 .f32) (c : Fin 256) (h : Fin 32) (w : Fin 128),
      k1_pay1 (F := Ideal) x0 x1 (ix4 (0 : Fin 1) c h w)
        = x0 (ix4 (0 : Fin 1) c h w) * x1 (ix4 (0 : Fin 1) c (0 : Fin 1) (0 : Fin 1)))
    (c : Dev nD) (t : Fin cfg1.N) :
    (dat1 V c).flushed 2 t = ((cfg1.win 2).blk t).view.read (Elt Ideal) (G (V c main_arg0) (V c main_v3)) := by
  show (cfg1.win 2).cut (grid1.coords t) ((dat1 V c).after 2 t) = _
  rw [after1_2]
  unfold out1_2
  rw [View.canon_unit_zero zero4]
  simp only [View.ld_unit_zero (S := S1x256x32x128) zero4, View.ld_unit_zero (S := S1x256x1x1) zero4]
  rw [pay_fun hpay]
  obtain ⟨e0, e1, e2, e3, e4, e5, e6, e7, e8, e9⟩ := idx_facts t
  funext j
  show FloatOps.mulf (F := Ideal) (φ := .f32) (V c main_arg0 (((cfg1.win 0).blk t).view.emb j))
        (V c main_v3 (((cfg1.win 1).blk t).view.emb
            (ix4 (0 : Fin 1) (⟨(j 1).val, (j 1).isLt⟩ : Fin 256) (0 : Fin 1) (0 : Fin 1))))
      = G (V c main_arg0) (V c main_v3) (((cfg1.win 2).blk t).view.emb j)
  have h0 : ((cfg1.win 0).blk t).view.emb j = ((cfg1.win 2).blk t).view.emb j := by
    funext a; apply Fin.ext
    match a with
    | ⟨0, _⟩ => show win1_0.index t (0 : Fin 4) * 1 + 1 * (j 0).val = win1_2.index t (0 : Fin 4) * 1 + 1 * (j 0).val; omega
    | ⟨1, _⟩ => show win1_0.index t (1 : Fin 4) * 256 + 1 * (j 1).val = win1_2.index t (1 : Fin 4) * 256 + 1 * (j 1).val; omega
    | ⟨2, _⟩ => show win1_0.index t (2 : Fin 4) * 32 + 1 * (j 2).val = win1_2.index t (2 : Fin 4) * 32 + 1 * (j 2).val; omega
    | ⟨3, _⟩ => show win1_0.index t (3 : Fin 4) * 128 + 1 * (j 3).val = win1_2.index t (3 : Fin 4) * 128 + 1 * (j 3).val; omega
  have h1 : ((cfg1.win 1).blk t).view.emb (ix4 (0 : Fin 1) (⟨(j 1).val, (j 1).isLt⟩ : Fin 256) (0 : Fin 1) (0 : Fin 1))
      = ix4 (⟨((((cfg1.win 2).blk t).view.emb j) 0).val, ((((cfg1.win 2).blk t).view.emb j) 0).isLt⟩ : Fin 8)
          (⟨((((cfg1.win 2).blk t).view.emb j) 1).val, ((((cfg1.win 2).blk t).view.emb j) 1).isLt⟩ : Fin 256)
          (0 : Fin 1) (0 : Fin 1) := by
    funext a; apply Fin.ext
    have hj0 : (j 0).val < 1 := (j 0).isLt
    match a with
    | ⟨0, _⟩ => show win1_1.index t (0 : Fin 4) * 1 + 1 * 0 = win1_2.index t (0 : Fin 4) * 1 + 1 * (j 0).val; omega
    | ⟨1, _⟩ => show win1_1.index t (1 : Fin 4) * 256 + 1 * (j 1).val = win1_2.index t (1 : Fin 4) * 256 + 1 * (j 1).val; omega
    | ⟨2, _⟩ => show win1_1.index t (2 : Fin 4) * 1 + 1 * 0 = 0; omega
    | ⟨3, _⟩ => show win1_1.index t (3 : Fin 4) * 1 + 1 * 0 = 0; omega
  unfold G
  rw [h0, h1]
  rfl

/-- An index of the array is in point `t`'s block iff each coordinate is in the block's range on its axis. -/
theorem mem_blk (t : Fin cfg1.N) (i : S8x256x128x128.Idx) :
    i ∈ ((cfg1.win 2).blk t).view.set ↔ ∀ a : Fin 4, win1_2.index t a * S1x256x32x128.size a ≤ (i a).val
      ∧ (i a).val < win1_2.index t a * S1x256x32x128.size a + S1x256x32x128.size a := by
  show i ∈ ((View.whole main_v4).slice (win1_2.rect t)).set ↔ _
  rw [View.set_slice_whole, Rect.mem_set_unit]
  exact Iff.rfl

/-- The blocks tile the array: the element (b, c, r, w) lies in the block of image b and band r / 32. -/
theorem cover (i : S8x256x128x128.Idx) :
    ∃ t : Fin cfg1.N, (cfg1.win 2).flush t = true ∧ i ∈ ((cfg1.win 2).blk t).view.set := by
  have hi0 : (i 0).val < 8 := (i 0).isLt
  have hi1 : (i 1).val < 256 := (i 1).isLt
  have hi2 : (i 2).val < 128 := (i 2).isLt
  have hi3 : (i 3).val < 128 := (i 3).isLt
  obtain ⟨t, ht⟩ := idx_onto ⟨(i 0).val, hi0⟩ ⟨(i 2).val / 32, by omega⟩
  have q0 : win1_2.index t (0 : Fin 4) = (i 0).val := congrFun ht 0
  have q1 : win1_2.index t (1 : Fin 4) = 0 := congrFun ht 1
  have q2 : win1_2.index t (2 : Fin 4) = (i 2).val / 32 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 256 ≤ (i 1).val ∧ (i 1).val < win1_2.index t (1 : Fin 4) * 256 + 256; omega
  | ⟨2, _⟩ => show win1_2.index t (2 : Fin 4) * 32 ≤ (i 2).val ∧ (i 2).val < win1_2.index t (2 : Fin 4) * 32 + 32; omega
  | ⟨3, _⟩ => show win1_2.index t (3 : Fin 4) * 128 ≤ (i 3).val ∧ (i 3).val < win1_2.index t (3 : Fin 4) * 128 + 128; omega

/-- The result array after the region: `G` of the two arrays found at entry. -/
theorem final
    (hpay : ∀ (x0 : Vec Ideal S1x256x32x128 .f32) (x1 : Vec Ideal S1x256x1x1 .f32) (c : Fin 256) (h : Fin 32) (w : Fin 128),
      k1_pay1 (F := Ideal) x0 x1 (ix4 (0 : Fin 1) c h w)
        = x0 (ix4 (0 : Fin 1) c h w) * x1 (ix4 (0 : Fin 1) c (0 : Fin 1) (0 : Fin 1)))
    (c : Dev nD) : (dat1 V c).arrAt 2 cfg1.N = G (V c main_arg0) (V c main_v3) :=
  (dat1 V c).arrAt_eq_of_cover 2 _ (fun t _ => flushed_eq V hpay c t) cover

end Cert.KernelIdeal.Scale

end
-- ==== Proof.KernelValue.lean ====
/-
  The idealized kernel's result array as the specification's function of the five arguments.

  The scaling region leaves x[i] * Y(i 0, i 1, 0, 0), where Y is the gate operand it finds at entry; that operand
  is the reshape [8,1,256] → [8,256,1,1] of the array the pooling region left, so Y(b, c, 0, 0) is that array at
  (b, 0, c), which is the specification's gate of image b and channel c computed from the arrays the pooling region
  found: the launched image batch and weights, and the bias vectors viewed as one-row matrices, whose row 0 is the
  vector again. Composing: the result is `Cert.Gate.scaled` of the launch contents.
-/
import proofs.«115423_j43447889166408_2_alg».proof.Proof.Entry
import proofs.«115423_j43447889166408_2_alg».proof.Proof.PoolRegion
import proofs.«115423_j43447889166408_2_alg».proof.Proof.ScaleRegion

set_option maxRecDepth 16384

noncomputable section

open scoped BigOperators

namespace Cert.KernelIdeal.Result

open Idealize.ShloMosaic Idealize.ShloMosaic.TcCoe Idealize.ShloMosaic.ValueIdx
open Idealize.SL Idealize.SL.Sem
open Cert.KernelIdeal Cert.KernelIdeal.Gen

/-- Row 0 of a vector of 16 viewed as one row, read back entry by entry, is the vector. -/
theorem row16_back (v : S16.Idx → EReal) (h : S16.ShapeCasts S1x16) :
    (fun j : S16.Idx => shapeCast S1x16 v h (ix2 (0 : Fin 1) (⟨(j 0).val, (j 0).isLt⟩ : Fin 16))) = v := by
  funext j
  rw [Entry.row16_apply]
  exact congrArg v (funext fun d => match d with | ⟨0, _⟩ => rfl)

/-- Row 0 of a vector of 256 viewed as one row, read back entry by entry, is the vector. -/
theorem row256_back (v : S256.Idx → EReal) (h : S256.ShapeCasts S1x256) :
    (fun j : S256.Idx => shapeCast S1x256 v h (ix2 (0 : Fin 1) (⟨(j 0).val, (j 0).isLt⟩ : Fin 256))) = v := by
  funext j
  rw [Entry.row256_apply]
  exact congrArg v (funext fun d => match d with | ⟨0, _⟩ => rfl)

/-- The composition of the two regions' functions through the reshapes is the specification. -/
theorem compose_eq (X : S8x256x128x128.Idx → EReal) (W1 : S16x256.Idx → EReal) (B1 : S16.Idx → EReal)
    (W2 : S256x16.Idx → EReal) (B2 : S256.Idx → EReal)
    (h1 : S16.ShapeCasts S1x16) (h2 : S256.ShapeCasts S1x256) (h3 : S8x1x256.ShapeCasts S8x256x1x1) :
    Scale.G X (shapeCast S8x256x1x1 (Pool.G X W1 (shapeCast S1x16 B1 h1) W2 (shapeCast S1x256 B2 h2)) h3)
      = Cert.Gate.scaled X W1 B1 W2 B2 := by
  funext i
  unfold Scale.G Cert.Gate.scaled
  rw [Entry.gate4_apply]
  unfold Pool.G
  rw [row16_back, row256_back]

variable (m : (ℓ : Loc nD τ sig) → Buf (Elt Ideal) ℓ) (ρ : Dev nD → PrngReg)

/-- The result array after the run is the specification's function of the launched arguments. -/
theorem result_eq
    (hpay0 : ∀ (x0 : Vec Ideal S1x256x128x128 .f32) (x1 : Vec Ideal S16x256 .f32) (x2 : Vec Ideal S1x16 .f32)
      (x3 : Vec Ideal S256x16 .f32) (x4 : Vec Ideal S1x256 .f32) (c : Fin 256),
      k0_pay1 (F := Ideal) x0 x1 x2 x3 x4 (ix3 (0 : Fin 1) (0 : Fin 1) c)
        = Ideal.logistic
            ((∑ s : Fin 16,
                Cert.Gate.leaky
                  ((∑ k : Fin 256,
                      ((∑ h : Fin 128, ∑ w : Fin 128, x0 (ix4 (0 : Fin 1) k h w)) * Ideal.ofBits .f32 0x38800000#32)
                        * x1 (ix2 s k))
                    + x2 (ix2 (0 : Fin 1) s))
                  * x3 (ix2 c s))
              + x4 (ix2 (0 : Fin 1) c)))
    (hpay1 : ∀ (x0 : Vec Ideal S1x256x32x128 .f32) (x1 : Vec Ideal S1x256x1x1 .f32) (c : Fin 256) (h : Fin 32) (w : Fin 128),
      k1_pay1 (F := Ideal) x0 x1 (ix4 (0 : Fin 1) c h w)
        = x0 (ix4 (0 : Fin 1) c h w) * x1 (ix4 (0 : Fin 1) c (0 : Fin 1) (0 : Fin 1)))
    (c : Dev nD) :
    (dat1 (V3 m ρ) c).arrAt 2 cfg1.N
      = Cert.Gate.scaled (m ((c : Thread nD τ).loc main_arg0)) (m ((c : Thread nD τ).loc main_arg1))
          (m ((c : Thread nD τ).loc main_arg2)) (m ((c : Thread nD τ).loc main_arg3))
          (m ((c : Thread nD τ).loc main_arg4)) := by
  rw [Scale.final (V3 m ρ) hpay1 c, Entry.scale_entry_x, Entry.scale_entry_gate, Pool.final (V1 m ρ) hpay0 c,
    Entry.pool_entry_x, Entry.pool_entry_w1, Entry.pool_entry_b1, Entry.pool_entry_w2, Entry.pool_entry_b2]
  exact compose_eq _ _ _ _ _ _ _ _

end Cert.KernelIdeal.Result

end
-- ==== Proof.lean ====
/-
  A squeeze-and-excite gate: the kernel against its reference, on the extended reals.

  Both programs take an image batch x : [8,256,128,128], weights w1 : [16,256], w2 : [256,16] and biases b1 : [16],
  b2 : [256], and return x scaled channel by channel by
      gate b c = logistic (sum_s leaky (sum_c' mean b c' * w1[s,c'] + b1[s]) * w2[c,s] + b2[c]),
  where mean b c is the average of x[b,c,.,.] over its 128 x 128 positions (`Cert.Gate`).

  The kernel does it in two regions. The first, once per image, sums the image over columns and then rows, multiplies
  by 2^-14, runs the two small matrix products (against the transposed weights, into a zero accumulator), the leaky
  rectifier and the logistic function, and writes the 256 gates of the image into row b of an [8,1,256] array. The
  program reshapes that array to [8,256,1,1]. The second region, once per image and band of 32 rows, multiplies the
  band by the image's gates broadcast over rows and columns. The reference takes the mean as one sum over both
  position axes divided by 16384, contracts with the untransposed weights, and spells the logistic function
  1 / (1 + e^(-y)).

  On the extended reals these are one function: a finite sum does not depend on its order or grouping (the extended
  reals are a commutative monoid under +), dividing by 16384 is multiplying by 2^-14 on every extended real (the
  infinities included), a change of float format is the identity, and the logistic function is by definition
  1 / (1 + e^(-y)). No step needs the inputs to be finite, so the precondition is never opened.

  The pieces: `Cert.Gate` (the specification), `Cert.RefGate.reference_eq` (the reference's run is the
  specification), `Cert.KernelIdeal.Pay` (the two bodies' stored values at an index), `Cert.KernelIdeal.Pool` and
  `Cert.KernelIdeal.Scale` (each region's write-backs tile its output array with blocks of one function),
  `Cert.KernelIdeal.Entry` (what the reshapes leave), `Cert.KernelIdeal.Result` (their composition) and
  `Cert.KernelIdeal.Named.run` (the kernel's run with its result array named). The frames of the two kernel
  programs are the generated ones; the reference's frame is its generated run with the result dropped; the ideal
  pass rewrote nothing, so there is nothing to preserve.
-/
import proofs.«115423_j43447889166408_2_alg».proof.Defs
import proofs.«115423_j43447889166408_2_alg».proof.Proof.Gen.Kernel
import proofs.«115423_j43447889166408_2_alg».proof.Proof.Gen.Kernel.Skeleton
import proofs.«115423_j43447889166408_2_alg».proof.Proof.Gen.Kernel.Launch
import proofs.«115423_j43447889166408_2_alg».proof.Proof.Gen.Kernel.Points
import proofs.«115423_j43447889166408_2_alg».proof.Proof.Gen.Kernel.Frame
import proofs.«115423_j43447889166408_2_alg».proof.Proof.Gen.KernelIdeal
import proofs.«115423_j43447889166408_2_alg».proof.Proof.Gen.KernelIdeal.Skeleton
import proofs.«115423_j43447889166408_2_alg».proof.Proof.Gen.KernelIdeal.Launch
import proofs.«115423_j43447889166408_2_alg».proof.Proof.Gen.KernelIdeal.Points
import proofs.«115423_j43447889166408_2_alg».proof.Proof.Gen.KernelIdeal.Frame
import proofs.«115423_j43447889166408_2_alg».proof.Proof.Gen.ReferenceIdeal
import proofs.«115423_j43447889166408_2_alg».proof.Proof.Gen.ReferenceIdeal.Run
import proofs.«115423_j43447889166408_2_alg».proof.Proof.Gen.ReferenceIdeal.Read
import proofs.«115423_j43447889166408_2_alg».proof.Proof.Gen.Pre_finite_inputs
import proofs.«115423_j43447889166408_2_alg».proof.Proof.Gate
import proofs.«115423_j43447889166408_2_alg».proof.Proof.RefGate
import proofs.«115423_j43447889166408_2_alg».proof.Proof.Payload
import proofs.«115423_j43447889166408_2_alg».proof.Proof.NamedRun
import proofs.«115423_j43447889166408_2_alg».proof.Proof.KernelValue
import Idealize.ShloMosaic.Adequacy
import Idealize.ShloMosaic.Init

noncomputable section

namespace Cert.Proof

open Idealize.ShloMosaic Idealize.ShloMosaic.TcCoe Idealize.SL.Sem

section Claims

/-- The word-level kernel runs, faults nowhere and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- From memories agreeing on the five arguments both idealized programs end with the result array at the
    specification's function of the arguments: the kernel by its two regions' tilings composed through the reshape,
    the reference by its run read one operation at a time. -/
theorem algebraic : Cert.algebraic_KernelIdeal_ReferenceIdeal := by
  intro m ρ m' ρ' _ hagree
  refine ⟨fun c => Cert.Gate.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Result.result_eq m ρ
          Cert.KernelIdeal.Pay.reduce_payload_apply Cert.KernelIdeal.Pay.scale_payload_apply c), (h c).2⟩)
      (Cert.KernelIdeal.Named.run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v24_eq, Cert.RefGate.reference_eq, (hagree c).1, (hagree c).2.1,
      (hagree c).2.2.1, (hagree c).2.2.2.1, (hagree c).2.2.2.2]

end Claims

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
